-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S1000x256 : Shape := ⟨2, ![1000, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_

variable [Facts]

def fn {F : FTy → Type} [FloatOps F] (main_arg0 : FVec F S65536x256 .f32) (main_arg1 : FVec F S1000x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S1000x256 .f32 := Host.absf main_arg1
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  main_v8
-- ==== Kernel.lean ====
abbrev S65536x256 : Shape := ⟨2, ![65536, 256]⟩
abbrev S1000x256 : Shape := ⟨2, ![1000, 256]⟩
abbrev S_ : Shape := ⟨0, ![]⟩
abbrev S1000 : Shape := ⟨1, ![1000]⟩
abbrev S1x1000 : Shape := ⟨2, ![1, 1000]⟩
abbrev S65536x1000 : Shape := ⟨2, ![65536, 1000]⟩
abbrev S1024x256 : Shape := ⟨2, ![1024, 256]⟩
abbrev S1024x1000 : Shape := ⟨2, ![1024, 1000]⟩
abbrev S1024 : Shape := ⟨1, ![1024]⟩
abbrev S1024x1 : Shape := ⟨2, ![1024, 1]⟩

abbrev nBuf : Space → Nat
  | .hbm => 11
  | .vmem => 6
  | .smem => 0
  | _ => 0

abbrev bufTy : (tb : Table) → Fin (tcTables nBuf tb) → BufTy
  | .hbm, ⟨0, _⟩ => ⟨S65536x256, .f32⟩
  | .hbm, ⟨1, _⟩ => ⟨S1000x256, .f32⟩
  | .hbm, ⟨2, _⟩ => ⟨S1000x256, .f32⟩
  | .hbm, ⟨3, _⟩ => ⟨S_, .f32⟩
  | .hbm, ⟨4, _⟩ => ⟨S1000, .f32⟩
  | .hbm, ⟨5, _⟩ => ⟨S1x1000, .f32⟩
  | .hbm, ⟨6, _⟩ => ⟨S_, .f32⟩
  | .hbm, ⟨7, _⟩ => ⟨S1000x256, .f32⟩
  | .hbm, ⟨8, _⟩ => ⟨S1000x256, .f32⟩
  | .hbm, ⟨9, _⟩ => ⟨S1000x256, .bf16⟩
  | .hbm, ⟨10, _⟩ => ⟨S65536x1000, .f32⟩
  | .local _ .vmem, ⟨0, _⟩ => ⟨S1024x256, .f32⟩
  | .local _ .vmem, ⟨1, _⟩ => ⟨S1024x256, .f32⟩
  | .local _ .vmem, ⟨2, _⟩ => ⟨S1000x256, .bf16⟩
  | .local _ .vmem, ⟨3, _⟩ => ⟨S1x1000, .f32⟩
  | .local _ .vmem, ⟨4, _⟩ => ⟨S1024x1000, .f32⟩
  | .local _ .vmem, ⟨5, _⟩ => ⟨S1024x1000, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1000x256_S1000_d1 : S1000x256.ReducesTo [1] S1000
  h_S_ : 0 < S_.numel
  shapeCasts_S1000_S1x1000 : S1000.ShapeCasts S1x1000
  bcast_S_S1000x256 : S_.BroadcastsInDim S1000x256 (![] : Fin 0 → Fin S1000x256.rank)
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  reduces_S1024x256_S1024 : S1024x256.Reduces [1] S1024
  shapeCasts_S1024_S1024x1 : S1024.ShapeCasts S1024x1
  broadcasts_S1024x1_S1024x1000 : S1024x1.Broadcasts S1024x1000
  broadcasts_S1x1000_S1024x1000 : S1x1000.Broadcasts S1024x1000
  inb_S1024x1000_S1024x1000_0_0 : ∀ a, (![0, 0] : Fin 2 → Nat) a + S1024x1000.size a ≤ S1024x1000.size a
  h_S1024x1000 : 0 < S1024x1000.numel
  dot_S1024x256_S1000x256_S1024x1000_1_1_0_0_n_n_wf : DotDims.WF S1024x256 S1000x256 S1024x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S1000x256.size a
  hwx0_1 : ∀ i : grid0.Coords, EltTy.bits .bf16 = 32 ∨ (Rect.block (s := S1000x256) S1000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1000.size a ≤ S65536x1000.size a
  hwx0_3 : ∀ i : grid0.Coords, EltTy.bits .f32 = 32 ∨ (Rect.block (s := S65536x1000) S1024x1000.size (cc0_transform_3 i) (hinb0_3 i)).WholeWords (EltTy.packing .f32)

variable [Facts₀]

def dot_S1024x256_S1000x256_S1024x1000_1_1_0_0_n_n : DotDims S1024x256 S1000x256 S1024x1000 where
  lhsContracting := [1]
  rhsContracting := [1]
  lhsNonContracting := [0]
  rhsNonContracting := [0]
  lhsBatch := []
  rhsBatch := []
  wf := dot_S1024x256_S1000x256_S1024x1000_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x256 : Shape := ⟨2, ![65536, 256]⟩
abbrev S1000x256 : Shape := ⟨2, ![1000, 256]⟩
abbrev S_ : Shape := ⟨0, ![]⟩
abbrev S65536 : Shape := ⟨1, ![65536]⟩
abbrev S65536x1 : Shape := ⟨2, ![65536, 1]⟩
abbrev S1000 : Shape := ⟨1, ![1000]⟩
abbrev S65536x1000 : Shape := ⟨2, ![65536, 1000]⟩
abbrev S1x1000 : Shape := ⟨2, ![1, 1000]⟩

abbrev nBuf : Space → Nat
  | .hbm => 23
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S1000x256, .f32⟩
  | .hbm, ⟨2, _⟩ => ⟨S65536x256, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S1000x256, .f32⟩
  | .hbm, ⟨7, _⟩ => ⟨S_, .f32⟩
  | .hbm, ⟨8, _⟩ => ⟨S1000, .f32⟩
  | .hbm, ⟨9, _⟩ => ⟨S65536x1000, .f32⟩
  | .hbm, ⟨10, _⟩ => ⟨S1x1000, .f32⟩
  | .hbm, ⟨11, _⟩ => ⟨S65536x1000, .f32⟩
  | .hbm, ⟨12, _⟩ => ⟨S65536x1000, .f32⟩
  | .hbm, ⟨13, _⟩ => ⟨S65536x1000, .f32⟩
  | .hbm, ⟨14, _⟩ => ⟨S_, .f32⟩
  | .hbm, ⟨15, _⟩ => ⟨S65536x1000, .f32⟩
  | .hbm, ⟨16, _⟩ => ⟨S65536x1000, .f32⟩
  | .hbm, ⟨17, _⟩ => ⟨S65536x1000, .f32⟩
  | .hbm, ⟨18, _⟩ => ⟨S_, .f32⟩
  | .hbm, ⟨19, _⟩ => ⟨S65536x1000, .f32⟩
  | .hbm, ⟨20, _⟩ => ⟨S65536x1000, .f32⟩
  | .hbm, ⟨21, _⟩ => ⟨S65536x1000, .f32⟩
  | .hbm, ⟨22, _⟩ => ⟨S65536x1000, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S1000x256_S1000_d1 : S1000x256.ReducesTo [1] S1000
  bcast_S1000_S1x1000_1 : S1000.BroadcastsInDim S1x1000 (![1] : Fin 1 → Fin S1x1000.rank)
  bcast_S65536x1_S65536x1000_0_1 : S65536x1.BroadcastsInDim S65536x1000 (![0, 1] : Fin 2 → Fin S65536x1000.rank)
  bcast_S1x1000_S65536x1000_0_1 : S1x1000.BroadcastsInDim S65536x1000 (![0, 1] : Fin 2 → Fin S65536x1000.rank)
  bcast_S_S65536x1000 : S_.BroadcastsInDim S65536x1000 (![] : Fin 0 → Fin S65536x1000.rank)
  dot_S65536x256_S1000x256_S65536x1000_1_1_0_0_n_n_wf : DotDims.WF S65536x256 S1000x256 S65536x1000 [1] [1] [0] [0] [] []

variable [Facts₀]

def dot_S65536x256_S1000x256_S65536x1000_1_1_0_0_n_n : DotDims S65536x256 S1000x256 S65536x1000 where
  lhsContracting := [1]
  rhsContracting := [1]
  lhsNonContracting := [0]
  rhsNonContracting := [0]
  lhsBatch := []
  rhsBatch := []
  wf := dot_S65536x256_S1000x256_S65536x1000_1_1_0_0_n_n_wf

class Facts : Prop extends Facts₀ where

variable [Facts]
-- ==== Proof.Finite.lean ====
/-
  Finiteness.  The precondition says that every entry of both argument arrays has absolute value below +∞.
  On the extended reals `|x| = max x (-x) < ⊤` excludes both infinities, so every entry is a real number.
-/
import proofs.«122601_j24696061952724_2_alg».proof.Pre_finite_inputs
import Idealize.ShloMosaic.Lib.ReduceAll
import Idealize.ShloMosaic.Lib.ValueIdx
import Idealize.ShloMosaic.PureOps.Ideal

noncomputable section

namespace IsoMax

open Idealize.ShloMosaic Idealize.ShloMosaic.ValueIdx

/-- The word `0x7F800000` denotes `+∞`. -/
theorem ofBits_inf : Ideal.ofBits .f32 0x7F800000#32 = (⊤ : EReal) := by
  simp [Ideal.ofBits, Ideal.ieee]

/-- An extended real whose absolute value is strictly below `+∞` is a real number. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hc
    simp [Ideal.cmp, hc] at h
  have h1 : x ≠ ⊤ := fun e => by rw [e] at hlt; simp at hlt
  have h2 : x ≠ ⊥ := fun e => by rw [e] at hlt; simp at hlt
  exact ⟨x.toReal, (EReal.coe_toReal h1 h2).symm⟩

instance : Subsingleton Cert.Pre_finite_inputs.S_.Idx := ⟨fun a b => funext fun d => d.elim0⟩

/-- Under the precondition every entry of both argument arrays is a real number. -/
theorem real_of_pre [Cert.Pre_finite_inputs.Facts]
    (x : FVec Ideal Cert.Pre_finite_inputs.S65536x256 .f32) (p : FVec Ideal Cert.Pre_finite_inputs.S1000x256 .f32)
    (h : Cert.Pre_finite_inputs.fn (F := Ideal) x p = fun _ => 1#1) :
    (∀ i, ∃ r : ℝ, x i = (r : EReal)) ∧ (∀ i, ∃ r : ℝ, p i = (r : EReal)) := by
  have h0 := congrFun h ix0
  dsimp only [Cert.Pre_finite_inputs.fn] at h0
  obtain ⟨hx, hp⟩ := IntOp.andi_eq_one.1 h0
  refine ⟨fun i => ?_, fun i => ?_⟩
  · exact real_of_abs_lt (x i) (Host.reduce_andi_all _ _ _ _ ix0 hx i)
  · exact real_of_abs_lt (p i) (Host.reduce_andi_all _ _ _ _ ix0 hp i)

end IsoMax

end
-- ==== Proof.Law.lean ====
/-
  The specification and the one algebraic law.

  For features `x : [65536, 256]` and prototypes `p : [1000, 256]` the result at `(n, c)` is the negated Euclidean
  distance in its expanded form
      negDist x p (n, c) = -√(max ((‖x n‖² + ‖p c‖²) - 2 · ⟨x n, p c⟩) 0),
  written exactly as a host computes it (each sum started from the zero word, the factor 2 the word of 2.0).
  A second arrangement folds the factor into the second operand of the inner product: `⟨x n, (-2) · p c⟩`, ADDED to
  the two squared norms, and takes the negation as `0 - ·`.  Over the reals the two are one number because
  `∑ a·(b·(-2)) = -(2·∑ a·b)`; on the extended reals that needs every entry finite (a factor does not move across a
  sum that meets both infinities), so the law is stated for real entries.
-/
import Idealize.ShloMosaic.PureOps.Ideal
import Idealize.ShloMosaic.PureOps.Ideal.Laws
import Idealize.ShloMosaic.Lib.ValueIdx

noncomputable section

open scoped BigOperators

namespace IsoMax

open Idealize.ShloMosaic Idealize.ShloMosaic.ValueIdx

/-- The coercion of the reals into the extended reals commutes with a finite sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The word `0x40000000` denotes the real `2`. -/
theorem ofBits_two : Ideal.ofBits .f32 0x40000000#32 = ((2 : ℝ) : EReal) := by
  simp [Ideal.ofBits, Ideal.ieee, -EReal.coe_mul]; norm_num

/-- The word `0xC0000000` denotes the real `-2`. -/
theorem ofBits_neg_two : Ideal.ofBits .f32 0xC0000000#32 = ((-2 : ℝ) : EReal) := by
  simp [Ideal.ofBits, Ideal.ieee, -EReal.coe_mul]; norm_num

/-- THE SPECIFICATION: the negated distance, index by index, in the host's arrangement. -/
def negDist (x : (⟨2, ![65536, 256]⟩ : Shape).Idx → EReal) (p : (⟨2, ![1000, 256]⟩ : Shape).Idx → EReal) :
    (⟨2, ![65536, 1000]⟩ : Shape).Idx → EReal := fun i =>
  -(Ideal.sqrt (max
      (((Ideal.ofBits .f32 0x00000000#32 + ∑ k : Fin 256, x (ix2 (i 0) k) * x (ix2 (i 0) k))
          + (Ideal.ofBits .f32 0x00000000#32 + ∑ k : Fin 256, p (ix2 (i 1) k) * p (ix2 (i 1) k)))
        - Ideal.ofBits .f32 0x40000000#32 * ∑ k : Fin 256, x (ix2 (i 0) k) * p (ix2 (i 1) k))
      (Ideal.ofBits .f32 0x00000000#32)))

/-- THE LAW, on one row `a` of features and one row `b` of prototypes, all entries real: the arrangement with the
    factor `-2` folded into the inner product's second operand is the host's arrangement. -/
theorem folded_eq {n : ℕ} (a b : Fin n → ℝ) :
    Ideal.ofBits .f32 0x00000000#32 - Ideal.sqrt (max
        (((∑ k : Fin n, ((a k : ℝ) : EReal) * (a k : ℝ))
            + (Ideal.ofBits .f32 0x00000000#32 + ∑ k : Fin n, ((b k : ℝ) : EReal) * (b k : ℝ)))
          + ∑ k : Fin n, ((a k : ℝ) : EReal) * (((b k : ℝ) : EReal) * Ideal.ofBits .f32 0xC0000000#32))
        (Ideal.ofBits .f32 0x00000000#32))
      = -(Ideal.sqrt (max
        (((Ideal.ofBits .f32 0x00000000#32 + ∑ k : Fin n, ((a k : ℝ) : EReal) * (a k : ℝ))
            + (Ideal.ofBits .f32 0x00000000#32 + ∑ k : Fin n, ((b k : ℝ) : EReal) * (b k : ℝ)))
          - Ideal.ofBits .f32 0x40000000#32 * ∑ k : Fin n, ((a k : ℝ) : EReal) * (b k : ℝ))
        (Ideal.ofBits .f32 0x00000000#32))) := by
  have hr : ∑ k : Fin n, a k * (b k * (-2)) = -(2 * ∑ k : Fin n, a k * b k) := by
    rw [Finset.mul_sum, ← Finset.sum_neg_distrib]
    exact Finset.sum_congr rfl fun k _ => by ring
  rw [Ideal.ofBits_zero_f32, ofBits_two, ofBits_neg_two, zero_sub, zero_add, zero_add]
  simp only [← EReal.coe_mul, coe_sum, ← EReal.coe_add, ← EReal.coe_sub]
  rw [hr]
  congr 4

end IsoMax

end
-- ==== Proof.RefSpec.lean ====
/-
  The host program computes the specification.  Its last stage, read at an index `(n, c)` one operation at a time, is
  `-√(max ((‖x n‖² + ‖p c‖²) - 2·⟨x n, p c⟩) 0)`: the two squared norms are row sums broadcast along the other axis
  (a keepdims column for the features, a row for the prototypes), the inner product is the contraction over the shared
  axis of length 256.  Every layout step reads its operand at the same row or column, so the composed index maps are the
  coordinate pairs `(n, k)` and `(c, k)`.
-/
import proofs.«122601_j24696061952724_2_alg».proof.Proof.Gen.ReferenceIdeal.Read
import proofs.«122601_j24696061952724_2_alg».proof.Proof.Law

noncomputable section

namespace IsoMax

open Idealize.ShloMosaic Idealize.ShloMosaic.ValueIdx
open Cert.ReferenceIdeal Cert.ReferenceIdeal.Read

/-- The host program's result, as a function of the two argument arrays, is the specification. -/
theorem ref_eq_negDist (x0 : (⟨S65536x256, .f32⟩ : BufTy).Contents (Elt Ideal))
    (x1 : (⟨S1000x256, .f32⟩ : BufTy).Contents (Elt Ideal)) :
    val_main_v16 (F := Ideal) x0 x1 = negDist x0 x1 := by
  funext i
  have e0 : ∀ k, idx_main_v1 (idx_main_v2 (idx_main_v7 i)) k = ix2 (i 0) k := fun k =>
    funext fun a => Fin.ext (by match a with | ⟨0, _⟩ => rfl | ⟨1, _⟩ => rfl)
  have e1 : ∀ k, idx_main_v4 (idx_main_v6 (idx_main_v8 i)) k = ix2 (i 1) k := fun k =>
    funext fun a => Fin.ext (by match a with | ⟨0, _⟩ => rfl | ⟨1, _⟩ => rfl)
  have e2 : ∀ k, lidx_main_v5 i k = ix2 (i 0) k := fun k =>
    funext fun a => Fin.ext (by match a with | ⟨0, _⟩ => rfl | ⟨1, _⟩ => rfl)
  have e3 : ∀ k, ridx_main_v5 i k = ix2 (i 1) k := fun k =>
    funext fun a => Fin.ext (by match a with | ⟨0, _⟩ => rfl | ⟨1, _⟩ => rfl)
  rw [val_main_v16_apply, val_main_v15_apply, val_main_v14_apply, val_main_v12_apply, val_main_v9_apply,
    val_main_v7_apply, val_main_v2_apply, val_main_v1_apply, val_main_v8_apply, val_main_v6_apply, val_main_v4_apply,
    val_main_v11_apply, val_main_v10_apply, val_main_cst_1_apply, val_main_v5_apply, val_main_v13_apply,
    val_main_cst_2_apply]
  simp only [e0, e1, e2, e3, val_main_v0_apply, val_main_v3_apply, val_main_cst_apply, val_main_cst_0_apply,
    Ideal.hostNegf_def, Ideal.negf_def, Ideal.hostUnary_sqrt_def, Ideal.maximumf_def, Ideal.subf_def, Ideal.addf_def,
    Ideal.mulf_def, Ideal.ofBits_def]
  rfl

end IsoMax

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.Payload.lean ====
/-
  What the kernel body computes, at one element of its output block.

  The body holds a block `x0` of 1024 feature rows, the whole array `x1` of scaled prototypes and the row `x3` of
  squared prototype norms.  At `(r, c)` it stores
      0 - √(max ((∑ₖ x0(r,k)² + x3(0,c)) + ∑ₖ x0(r,k)·x1(c,k)) 0):
  the lane sum of squares of row `r` (a vector of 1024, cast to a column and broadcast along the columns), the row of
  norms broadcast along the rows, and the matrix product contracting the shared axis of length 256 into a zero
  accumulator.  A change of float format is the identity on the extended reals.
-/
import proofs.«122601_j24696061952724_2_alg».proof.Proof.Gen.KernelIdeal.Skeleton
import proofs.«122601_j24696061952724_2_alg».proof.Proof.LibColumnLayout
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace IsoMax

open Idealize.ShloMosaic Idealize.ShloMosaic.ValueIdx
open Cert.KernelIdeal Cert.KernelIdeal.Gen

/-- A lane sum over the second axis of a `[1024, 256]` block, at row `r`: the sum over the row. -/
theorem laneSum_apply (v : FVec Ideal S1024x256 .f32) (h : S1024x256.Reduces [1] S1024) (hφ : FKind.Formats .f32)
    (hacc : (0x00000000#32 : BitVec (FTy.bits .f32)) = FKind.add.neutral .f32 hφ) (r : Fin 1024) :
    multiReduction .add [1] S1024 v 0x00000000#32 h hφ hacc (ix1 r) = ∑ k : Fin 256, v (ix2 r k) :=
  (Ideal.multiReduction_add_single v _ h hφ hacc (ix1 r)).trans
    (Finset.sum_congr rfl fun k _ => congrArg v (funext fun a => Fin.ext (by
      match a with
      | ⟨0, _⟩ => rfl
      | ⟨1, _⟩ => rfl)))

/-- The left operand's index of the product at `j`: row `j 0` on its kept axis … -/
theorem lhs_axis0 (j : S1024x1000.Idx) (q : dot_S1024x256_S1000x256_S1024x1000_1_1_0_0_n_n.contr.Idx) :
    (dot_S1024x256_S1000x256_S1024x1000_1_1_0_0_n_n.lhsIdx j q 0).val = (j 0).val := by
  unfold DotDims.lhsIdx
  rw [dif_neg (show ¬(0 : Fin S1024x256.rank) ∈ dot_S1024x256_S1000x256_S1024x1000_1_1_0_0_n_n.lhsBatch by decide),
    dif_pos (show (0 : Fin S1024x256.rank) ∈ dot_S1024x256_S1000x256_S1024x1000_1_1_0_0_n_n.lhsNonContracting by decide)]
  rfl
/-- … and the contraction's coordinate on its contracted axis. -/
theorem lhs_axis1 (j : S1024x1000.Idx) (q : dot_S1024x256_S1000x256_S1024x1000_1_1_0_0_n_n.contr.Idx) :
    (dot_S1024x256_S1000x256_S1024x1000_1_1_0_0_n_n.lhsIdx j q 1).val = (q ⟨0, by decide⟩).val :=
  dot_S1024x256_S1000x256_S1024x1000_1_1_0_0_n_n.lhsIdx_val_of_single rfl j q
/-- The right operand's index of the product at `j`: row `j 1` on its kept axis … -/
theorem rhs_axis0 (j : S1024x1000.Idx) (q : dot_S1024x256_S1000x256_S1024x1000_1_1_0_0_n_n.contr.Idx) :
    (dot_S1024x256_S1000x256_S1024x1000_1_1_0_0_n_n.rhsIdx j q 0).val = (j 1).val := by
  unfold DotDims.rhsIdx
  rw [dif_neg (show ¬(0 : Fin S1000x256.rank) ∈ dot_S1024x256_S1000x256_S1024x1000_1_1_0_0_n_n.rhsBatch by decide),
    dif_pos (show (0 : Fin S1000x256.rank) ∈ dot_S1024x256_S1000x256_S1024x1000_1_1_0_0_n_n.rhsNonContracting by decide)]
  rfl
/-- … and the contraction's coordinate on its contracted axis. -/
theorem rhs_axis1 (j : S1024x1000.Idx) (q : dot_S1024x256_S1000x256_S1024x1000_1_1_0_0_n_n.contr.Idx) :
    (dot_S1024x256_S1000x256_S1024x1000_1_1_0_0_n_n.rhsIdx j q 1).val = (q ⟨0, by decide⟩).val :=
  dot_S1024x256_S1000x256_S1024x1000_1_1_0_0_n_n.rhsIdx_val_of_single rfl j q

/-- The matrix product of a `[1024, 256]` block with a `[1000, 256]` array, contracting the second axis of both, into
    a zero accumulator, at `(r, c)`: the inner product of row `r` with row `c`. -/
theorem rowDot_apply (l : FVec Ideal S1024x256 .bf16) (q : FVec Ideal S1000x256 .bf16) (r : Fin 1024) (c : Fin 1000) :
    matmul (F := Ideal) dot_S1024x256_S1000x256_S1024x1000_1_1_0_0_n_n none l q (constant S1024x1000 .f32 0x00000000#32) (ix2 r c)
      = ∑ k : Fin 256, l (ix2 r k) * q (ix2 c k) := by
  show FloatOps.matmul dot_S1024x256_S1000x256_S1024x1000_1_1_0_0_n_n none l q (constant S1024x1000 .f32 0x00000000#32) (ix2 r c) = _
  rw [Ideal.matmul_constant_zero_apply,
    ← Equiv.sum_comp (contrEquiv1 dot_S1024x256_S1000x256_S1024x1000_1_1_0_0_n_n 256 rfl rfl).symm]
  refine Finset.sum_congr rfl fun k _ => ?_
  have hk := contrEquiv1_symm_val dot_S1024x256_S1000x256_S1024x1000_1_1_0_0_n_n 256 rfl rfl k
  have el : dot_S1024x256_S1000x256_S1024x1000_1_1_0_0_n_n.lhsIdx (ix2 r c)
      ((contrEquiv1 dot_S1024x256_S1000x256_S1024x1000_1_1_0_0_n_n 256 rfl rfl).symm k) = ix2 r k :=
    funext fun a => Fin.ext (by
      match a with
      | ⟨0, _⟩ => exact lhs_axis0 _ _
      | ⟨1, _⟩ => exact (lhs_axis1 _ _).trans hk)
  have er : dot_S1024x256_S1000x256_S1024x1000_1_1_0_0_n_n.rhsIdx (ix2 r c)
      ((contrEquiv1 dot_S1024x256_S1000x256_S1024x1000_1_1_0_0_n_n 256 rfl rfl).symm k) = ix2 c k :=
    funext fun a => Fin.ext (by
      match a with
      | ⟨0, _⟩ => exact rhs_axis0 _ _
      | ⟨1, _⟩ => exact (rhs_axis1 _ _).trans hk)
  rw [el, er]

/-- THE BODY'S STORED VALUE at `(r, c)` of the output block. -/
theorem pay_apply (x0 : Vec Ideal S1024x256 .f32) (x1 : Vec Ideal S1000x256 .bf16) (x3 : Vec Ideal S1x1000 .f32)
    (r : Fin 1024) (c : Fin 1000) :
    k0_pay1 (F := Ideal) x0 x1 x3 (ix2 r c)
      = Ideal.ofBits .f32 0x00000000#32 - Ideal.sqrt (max
          (((∑ k : Fin 256, x0 (ix2 r k) * x0 (ix2 r k)) + x3 (ix2 (0 : Fin 1) c))
            + ∑ k : Fin 256, x0 (ix2 r k) * x1 (ix2 c k))
          (Ideal.ofBits .f32 0x00000000#32)) := by
  have h1 : broadcastTo S1024x1000 (shapeCast S1024x1 (multiReduction (F := Ideal) .add [1] S1024 (mulf x0 x0) 0x00000000#32
        reduces_S1024x256_S1024 (.inl rfl) rfl) shapeCasts_S1024_S1024x1) broadcasts_S1024x1_S1024x1000 (ix2 r c)
      = ∑ k : Fin 256, x0 (ix2 r k) * x0 (ix2 r k) := by
    refine (PhysLoss.broadcastTo_a1_ab_apply _ _ r c).trans ?_
    refine (PhysLoss.shapeCast_a_a1_apply _ _ r 0).trans ?_
    exact laneSum_apply (mulf x0 x0) _ _ _ r
  have h2 : broadcastTo S1024x1000 (shapeCast S1x1000 x3 shapeCasts_S1x1000_S1x1000) broadcasts_S1x1000_S1024x1000 (ix2 r c)
      = x3 (ix2 (0 : Fin 1) c) := by
    rw [shapeCast_self]
    exact broadcastTo_1b_ab_apply _ _ r c
  have h3 : matmul (F := Ideal) (φ₁ := .bf16) (φ₂ := .bf16) dot_S1024x256_S1000x256_S1024x1000_1_1_0_0_n_n none
        (truncf .bf16 x0 bitsLt_bf16_f32)
        (shapeCast S1000x256 (x1 : FVec Ideal S1000x256 .bf16) shapeCasts_S1000x256_S1000x256)
        (constant (F := Ideal) S1024x1000 .f32 0x00000000#32) (ix2 r c)
      = ∑ k : Fin 256, x0 (ix2 r k) * x1 (ix2 c k) := by
    rw [shapeCast_self]
    exact rowDot_apply _ _ r c
  unfold k0_pay1
  show _ - Ideal.sqrt (max ((_ + _) + _) _) = _
  rw [h1, h2, h3]
  rfl

end IsoMax

end
-- ==== Proof.Point.lean ====
/-
  One element of one block against the specification.

  Suppose the body's three loads are what the pipeline hands it: row `r` of the feature block is row `n` of the
  features `X`, the scaled prototypes are `P · (-2)` entry by entry, and the row of norms at column `q` is
  `0 + ∑ₖ P(q,k)²`.  Then, all entries of `X` and `P` being real, the stored value at `(r, q)` is the specification
  at `(n, q)`: the body's arrangement (the factor `-2` inside the inner product, added) is the host's (twice the inner
  product, subtracted) by the law for real rows.
-/
import proofs.«122601_j24696061952724_2_alg».proof.Proof.Payload
import proofs.«122601_j24696061952724_2_alg».proof.Proof.Law

noncomputable section

open scoped BigOperators

namespace IsoMax

open Idealize.ShloMosaic Idealize.ShloMosaic.ValueIdx
open Cert.KernelIdeal Cert.KernelIdeal.Gen

theorem point_eq (X : (⟨2, ![65536, 256]⟩ : Shape).Idx → EReal) (P : (⟨2, ![1000, 256]⟩ : Shape).Idx → EReal)
    (hX : ∀ i, ∃ a : ℝ, X i = (a : EReal)) (hP : ∀ i, ∃ b : ℝ, P i = (b : EReal))
    (x0 : Vec Ideal S1024x256 .f32) (x1 : Vec Ideal S1000x256 .bf16) (x3 : Vec Ideal S1x1000 .f32)
    (n : Fin 65536) (r : Fin 1024) (q : Fin 1000)
    (h0 : ∀ k : Fin 256, x0 (ix2 r k) = X (ix2 n k))
    (h1 : ∀ k : Fin 256, x1 (ix2 q k) = P (ix2 q k) * Ideal.ofBits .f32 0xC0000000#32)
    (h3 : x3 (ix2 (0 : Fin 1) q) = Ideal.ofBits .f32 0x00000000#32 + ∑ k : Fin 256, P (ix2 q k) * P (ix2 q k)) :
    k0_pay1 (F := Ideal) x0 x1 x3 (ix2 r q) = negDist X P (ix2 n q) := by
  rw [pay_apply]
  simp only [h0, h1, h3]
  choose a ha using fun k : Fin 256 => hX (ix2 n k)
  choose b hb using fun k : Fin 256 => hP (ix2 q k)
  unfold negDist
  show _ = -(Ideal.sqrt (max
      (((Ideal.ofBits .f32 0x00000000#32 + ∑ k : Fin 256, X (ix2 n k) * X (ix2 n k))
          + (Ideal.ofBits .f32 0x00000000#32 + ∑ k : Fin 256, P (ix2 q k) * P (ix2 q k)))
        - Ideal.ofBits .f32 0x40000000#32 * ∑ k : Fin 256, X (ix2 n k) * P (ix2 q k))
      (Ideal.ofBits .f32 0x00000000#32)))
  simp only [ha, hb]
  exact folded_eq a b

end IsoMax

end
-- ==== Proof.HostSide.lean ====
/-
  What the kernel's region finds in the two arrays the host prepares before it.

  Before the region the host squares the prototypes and sums each row (from the zero word) into a vector of 1000 norms,
  reshaped to one row `[1, 1000]`; and it multiplies the prototypes by the splat of the word of `-2.0`, then changes
  the float format (the identity on the extended reals).  Read at an index: the row of norms at `(0, c)` is
  `0 + ∑ₖ p(c,k)²`, the scaled prototypes at `(c, k)` are `p(c,k) · (-2)`.
-/
import proofs.«122601_j24696061952724_2_alg».proof.Proof.Gen.KernelIdeal.Frame
import Idealize.ShloMosaic.Lib.StableHlo.Run
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace IsoMax

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The features as launched on core `c`, as a function of the array index. -/
abbrev feats (c : Dev nD) : S65536x256.Idx → EReal := m ((c : Thread nD τ).loc main_arg0)
/-- The prototypes as launched on core `c`, as a function of the array index. -/
abbrev protos (c : Dev nD) : S1000x256.Idx → EReal := m ((c : Thread nD τ).loc main_arg1)

/-- The scaled prototypes as the region finds them: the host's operations on the launch contents. -/
theorem V_scaled (c : Dev nD) : (V m c main_v5 : S1000x256.Idx → EReal)
    = truncf .bf16 (mulf (protos m c)
        (broadcastInDim S1000x256 ![] bcast_S_S1000x256 (constant (F := Ideal) S_ .f32 0xC0000000#32))) bitsLt_bf16_f32 := by
  dsimp only [Gen.V, Gen.hostOps0]
  after_results

/-- The row of squared norms as the region finds it. -/
theorem V_norms (c : Dev nD) : (V m c main_v2 : S1x1000.Idx → EReal)
    = shapeCast S1x1000 (Host.reduceAdd (F := Ideal) (mulf (protos m c) (protos m c))
        (constant (F := Ideal) S_ .f32 0x00000000#32) reducesTo_S1000x256_S1000_d1 h_S_) shapeCasts_S1000_S1x1000 := by
  dsimp only [Gen.V, Gen.hostOps0]
  after_results
  rfl

/-- The scaled prototypes at `(q, k)`: the prototype entry times the word of `-2.0`. -/
theorem V_scaled_apply (c : Dev nD) (j : S1000x256.Idx) :
    (V m c main_v5 : S1000x256.Idx → EReal) j = protos m c j * Ideal.ofBits .f32 0xC0000000#32 := by
  rw [V_scaled]
  rfl

/-- The row of squared norms at `(0, q)`: the zero word plus the sum of squares of prototype row `q`. -/
theorem V_norms_apply (c : Dev nD) (q : Fin 1000) :
    (V m c main_v2 : S1x1000.Idx → EReal) (ix2 (0 : Fin 1) q)
      = Ideal.ofBits .f32 0x00000000#32 + ∑ k : Fin 256, protos m c (ix2 q k) * protos m c (ix2 q k) := by
  rw [V_norms]
  refine (shapeCast_a_1a_apply _ _ (0 : Fin 1) q).trans ?_
  simp only [Host.reduceAdd, Ideal.hostReduceAdd_def]
  rw [Ideal.hostReduceAdd_single reducesTo_S1000x256_S1000_d1 (by decide)]
  refine congrArg (_ + ·) (Finset.sum_congr rfl fun k _ => ?_)
  exact congrArg (mulf (F := Ideal) (protos m c) (protos m c))
    (funext fun a => Fin.ext (by match a with | ⟨0, _⟩ => rfl | ⟨1, _⟩ => rfl))

end IsoMax

end
-- ==== Proof.Blocks.lean ====
/-
  From blocks to the whole array.

  The grid has 64 points.  At point `t` the feature window stages rows `1024·t … 1024·t + 1023`, the scaled prototypes
  and the row of norms are staged whole, and the output window writes back rows `1024·t … 1024·t + 1023` of the result,
  all 1000 columns.  So the element `(r, q)` of the block written at `t` is the result at `(1024·t + r, q)`, and it is the
  specification there (one element of one block, read through the three input blocks).  The 64 row bands tile the array:
  row `n` is in the band of point `n / 1024`.  Hence after the run the result array IS the specification of the launch
  contents of the two arguments.
-/
import proofs.«122601_j24696061952724_2_alg».proof.Proof.Gen.KernelIdeal.Value
import proofs.«122601_j24696061952724_2_alg».proof.Proof.Point
import proofs.«122601_j24696061952724_2_alg».proof.Proof.HostSide

noncomputable section

open scoped BigOperators

namespace IsoMax

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The windows' block indices at each of the 64 points: the feature and result windows move down one band per point,
    the two prototype-derived windows stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point `t`: its row `r` is row `1024·t + r` of the features. -/
theorem featBlock_apply (c : Dev nD) (t : Fin cfg0.N) (r : Fin 1024) (k : Fin 256) (n : Fin 65536)
    (hn : n.val = t.val * 1024 + r.val) : iblk m c 0 t (ix2 r k) = feats m c (ix2 n k) := by
  obtain ⟨e0, e1, -⟩ := block_indices t
  show V m c main_arg0 (((cfg0.win 0).blk t).view.emb (ix2 r k)) = _
  rw [V_main_arg0]
  refine congrArg (feats m c) (funext fun a => Fin.ext ?_)
  match a with
  | ⟨0, _⟩ => show win0_0.index t (0 : Fin 2) * 1024 + 1 * r.val = n.val; rw [e0, hn]; omega
  | ⟨1, _⟩ => show win0_0.index t (1 : Fin 2) * 256 + 1 * k.val = k.val; rw [e1]; omega

/-- The scaled-prototype block at any point is the whole array: entry `(q, k)` is `p(q,k) · (-2)`. -/
theorem scaledBlock_apply (c : Dev nD) (t : Fin cfg0.N) (q : Fin 1000) (k : Fin 256) :
    iblk m c 1 t (ix2 q k) = protos m c (ix2 q k) * Ideal.ofBits .f32 0xC0000000#32 := by
  obtain ⟨-, -, e2, e3, -⟩ := block_indices t
  show (V m c main_v5 : S1000x256.Idx → EReal) (((cfg0.win 1).blk t).view.emb (ix2 q k)) = _
  rw [V_scaled_apply]
  refine congrArg (fun j => protos m c j * Ideal.ofBits .f32 0xC0000000#32) (funext fun a => Fin.ext ?_)
  match a with
  | ⟨0, _⟩ => show win0_1.index t (0 : Fin 2) * 1000 + 1 * q.val = q.val; rw [e2]; omega
  | ⟨1, _⟩ => show win0_1.index t (1 : Fin 2) * 256 + 1 * k.val = k.val; rw [e3]; omega

/-- The norm block at any point is the whole row: entry `(0, q)` is `0 + ∑ₖ p(q,k)²`. -/
theorem normBlock_apply (c : Dev nD) (t : Fin cfg0.N) (q : Fin 1000) :
    iblk m c 2 t (ix2 (0 : Fin 1) q)
      = Ideal.ofBits .f32 0x00000000#32 + ∑ k : Fin 256, protos m c (ix2 q k) * protos m c (ix2 q k) := by
  obtain ⟨-, -, -, -, e4, e5, -⟩ := block_indices t
  show (V m c main_v2 : S1x1000.Idx → EReal) (((cfg0.win 2).blk t).view.emb (ix2 (0 : Fin 1) q)) = _
  have he : ((cfg0.win 2).blk t).view.emb (ix2 (0 : Fin 1) q) = ix2 (0 : Fin 1) q := funext fun a => Fin.ext (by
    match a with
    | ⟨0, _⟩ => show win0_2.index t (0 : Fin 2) * 1 + 1 * 0 = 0; rw [e4]
    | ⟨1, _⟩ => show win0_2.index t (1 : Fin 2) * 1000 + 1 * q.val = q.val; rw [e5]; omega)
  rw [he]
  exact V_norms_apply m c q

/-- WHAT POINT `t` WRITES BACK is block `t` of the specification of the launch contents, all entries being real. -/
theorem flushed_eq (hX : ∀ c i, ∃ a : ℝ, feats m c i = (a : EReal)) (hP : ∀ c i, ∃ b : ℝ, protos m c i = (b : EReal))
    (c : Dev nD) (t : Fin cfg0.N) :
    (dats m 0 c).flushed 3 t
      = ((cfg0.win 3).blk t).view.read (Elt Ideal) (negDist (feats m c) (protos m c)) := by
  rw [Cert.KernelIdeal.Value.flushed3]
  unfold out0_3
  rw [View.canon_unit_zero zero_offsets]
  simp only [View.ld_unit_zero (S := S1024x256) zero_offsets, View.ld_unit_zero (S := S1000x256) zero_offsets,
    View.ld_unit_zero (S := S1x1000) zero_offsets]
  obtain ⟨-, -, -, -, -, -, e6, e7⟩ := block_indices t
  funext j
  obtain ⟨r, q, rfl⟩ : ∃ (r : Fin 1024) (q : Fin 1000), j = ix2 r q := ⟨j 0, j 1, eq_ix2 j⟩
  have hN : grid0.N = 64 := N_0
  have ht : t.val < grid0.N := t.isLt
  have hn : t.val * 1024 + r.val < 65536 := by have := r.isLt; omega
  show k0_pay1 (iblk m c 0 t) (iblk m c 1 t) (iblk m c 2 t) (ix2 r q)
    = negDist (feats m c) (protos m c) (((cfg0.win 3).blk t).view.emb (ix2 r q))
  have hemb : ((cfg0.win 3).blk t).view.emb (ix2 r q) = ix2 (⟨t.val * 1024 + r.val, hn⟩ : Fin 65536) q :=
    funext fun a => Fin.ext (by
      match a with
      | ⟨0, _⟩ => show win0_3.index t (0 : Fin 2) * 1024 + 1 * r.val = t.val * 1024 + r.val; rw [e6]; omega
      | ⟨1, _⟩ => show win0_3.index t (1 : Fin 2) * 1000 + 1 * q.val = q.val; rw [e7]; omega)
  rw [hemb]
  exact point_eq (feats m c) (protos m c) (hX c) (hP c) (iblk m c 0 t) (iblk m c 1 t) (iblk m c 2 t)
    ⟨t.val * 1024 + r.val, hn⟩ r q (fun k => featBlock_apply m c t r k _ rfl) (fun k => scaledBlock_apply m c t q k)
    (normBlock_apply m c t q)

/-- An index of the result array is in point `t`'s block iff each coordinate is in the block's range on its axis. -/
theorem mem_block (t : Fin cfg0.N) (i : S65536x1000.Idx) :
    i ∈ ((cfg0.win 3).blk t).view.set ↔ ∀ a : Fin 2, win0_3.index t a * S1024x1000.size a ≤ (i a).val
      ∧ (i a).val < win0_3.index t a * S1024x1000.size a + S1024x1000.size a := by
  show i ∈ ((View.whole main_v6).slice (win0_3.rect t)).set ↔ _
  rw [View.set_slice_whole, Rect.mem_set_unit]
  exact Iff.rfl

/-- The 64 row bands cover the result array: row `n` lies in the band of point `n / 1024`. -/
theorem bands_cover (i : S65536x1000.Idx) :
    ∃ t : Fin cfg0.N, (cfg0.win 3).flush t = true ∧ i ∈ ((cfg0.win 3).blk t).view.set := by
  have hi0 : (i 0).val < 65536 := (i 0).isLt
  have hi1 : (i 1).val < 1000 := (i 1).isLt
  have hN : grid0.N = 64 := N_0
  have hlt : (i 0).val / 1024 < grid0.N := by omega
  refine ⟨⟨(i 0).val / 1024, hlt⟩, flush0_3 _, ?_⟩
  rw [mem_block]
  obtain ⟨-, -, -, -, -, -, e6, e7⟩ := block_indices ⟨(i 0).val / 1024, hlt⟩
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    rw [e6]; show (i 0).val / 1024 * 1024 ≤ (i 0).val ∧ (i 0).val < (i 0).val / 1024 * 1024 + 1024; omega
  | ⟨1, _⟩ =>
    show win0_3.index ⟨(i 0).val / 1024, hlt⟩ (1 : Fin 2) * 1000 ≤ (i 1).val
      ∧ (i 1).val < win0_3.index ⟨(i 0).val / 1024, hlt⟩ (1 : Fin 2) * 1000 + 1000
    rw [e7]; omega

/-- THE RESULT ARRAY after the run is the specification of the launch contents. -/
theorem final (hX : ∀ c i, ∃ a : ℝ, feats m c i = (a : EReal)) (hP : ∀ c i, ∃ b : ℝ, protos m c i = (b : EReal))
    (c : Dev nD) : (dats m 0 c).arrAt 3 cfg0.N = negDist (feats m c) (protos m c) :=
  (dats m 0 c).arrAt_eq_of_cover 3 (negDist (feats m c) (protos m c)) (fun t _ => flushed_eq m hX hP c t) bands_cover

/-- The kernel program's run, with the result array at the specification and the arguments unchanged. -/
theorem run (hX : ∀ c i, ∃ a : ℝ, feats m c i = (a : EReal)) (hP : ∀ c i, ∃ b : ℝ, protos m c i = (b : EReal)) :
    θ_run defs (onTc (τ := τ) (main (F := Ideal))) ⟨m, fun _ => 0, ρ⟩ fun r => ∀ c : Dev nD,
      r.2.mem ((c : Thread nD τ).loc main_v6) = negDist (feats m c) (protos m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hX hP c), (h c).2⟩)
    (Cert.KernelIdeal.Value.run_blocks m ρ)

end IsoMax

end
-- ==== Proof.lean ====
/-
  Negated Euclidean distances between 65536 feature rows and 1000 prototype rows of length 256:
      result (n, c) = -√(max (‖x n‖² + ‖p c‖² - 2·⟨x n, p c⟩) 0).

  The reference computes exactly this expression on the host.  The kernel program prepares, on the host, the row of
  squared prototype norms and the prototypes scaled by `-2`; its region then walks 64 bands of 1024 feature rows and
  stores, for each band, `0 - √(max ((‖x n‖² + ‖p c‖²) + ⟨x n, (-2)·p c⟩) 0)`.  On the extended reals a change of float
  format is the identity and the matrix unit's product is the exact contraction, so the two programs differ only by
  where the factor `-2` sits relative to the sum over the contracted axis, and by `0 - s` against `-s`.  Moving a
  factor across a sum needs every term finite; the precondition (all inputs finite) gives that every entry is a real
  number, and over the reals `∑ a·(b·(-2)) = -(2·∑ a·b)`.

  The modules: Finite (the precondition makes every entry real), Law (the specification `negDist` and the law on real
  rows), RefSpec (the reference's result is `negDist` of its arguments), Payload (the body's stored value at an index),
  HostSide (the two prepared arrays at an index), Point (one element of one block is the specification), Blocks (the 64
  bands tile the result array; the kernel program's run), and here the five claims.
-/
import proofs.«122601_j24696061952724_2_alg».proof.Defs
import proofs.«122601_j24696061952724_2_alg».proof.Proof.Gen.Kernel
import proofs.«122601_j24696061952724_2_alg».proof.Proof.Gen.Kernel.Skeleton
import proofs.«122601_j24696061952724_2_alg».proof.Proof.Gen.Kernel.Launch
import proofs.«122601_j24696061952724_2_alg».proof.Proof.Gen.Kernel.Points
import proofs.«122601_j24696061952724_2_alg».proof.Proof.Gen.Kernel.Frame
import proofs.«122601_j24696061952724_2_alg».proof.Proof.Gen.KernelIdeal
import proofs.«122601_j24696061952724_2_alg».proof.Proof.Gen.KernelIdeal.Skeleton
import proofs.«122601_j24696061952724_2_alg».proof.Proof.Gen.KernelIdeal.Launch
import proofs.«122601_j24696061952724_2_alg».proof.Proof.Gen.KernelIdeal.Points
import proofs.«122601_j24696061952724_2_alg».proof.Proof.Gen.KernelIdeal.Frame
import proofs.«122601_j24696061952724_2_alg».proof.Proof.Gen.ReferenceIdeal
import proofs.«122601_j24696061952724_2_alg».proof.Proof.Gen.Pre_finite_inputs
import proofs.«122601_j24696061952724_2_alg».proof.Proof.Gen.KernelIdeal.Value
import proofs.«122601_j24696061952724_2_alg».proof.Proof.Gen.ReferenceIdeal.Run
import proofs.«122601_j24696061952724_2_alg».proof.Proof.Gen.ReferenceIdeal.Read
import proofs.«122601_j24696061952724_2_alg».proof.Proof.Finite
import proofs.«122601_j24696061952724_2_alg».proof.Proof.RefSpec
import proofs.«122601_j24696061952724_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel program was read on the extended reals. -/
theorem preserves : Cert.preserves_Kernel_KernelIdeal := trivial

/-- From memories agreeing on the two arguments, both programs end with the result array at the specification of the
    arguments: the kernel program because its 64 bands tile the array and each element is the specification there
    (every entry being real under the precondition), the reference because its last stage is the specification. -/
theorem algebraic : Cert.algebraic_KernelIdeal_ReferenceIdeal := by
  intro m ρ m' ρ' hpre hagree
  have hfin : ∀ c : Dev Cert.KernelIdeal.nD, (∀ i, ∃ a : ℝ, IsoMax.feats m c i = (a : EReal))
      ∧ (∀ i, ∃ b : ℝ, IsoMax.protos m c i = (b : EReal)) := fun c => IsoMax.real_of_pre _ _ (hpre c)
  refine ⟨fun c => IsoMax.negDist (IsoMax.feats m c) (IsoMax.protos m c),
    IsoMax.run m ρ (fun c => (hfin c).1) (fun c => (hfin c).2), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, IsoMax.ref_eq_negDist, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
